-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1000000 32) (main_arg2 : FVec F S100000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 27
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .f32⟩
  | .hbm, ⟨3, _⟩ => ⟨S64x64, .f32⟩
  | .hbm, ⟨4, _⟩ => ⟨S64, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S100000x1, .f32⟩
  | .hbm, ⟨23, _⟩ => ⟨S64x64, .f32⟩
  | .hbm, ⟨24, _⟩ => ⟨S64x64, .bf16⟩
  | .hbm, ⟨25, _⟩ => ⟨S1x64, .f32⟩
  | .hbm, ⟨26, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .bf16⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S100000_S100000x1 : S100000.ShapeCasts S100000x1
  transposes_S64x64_S64x64_1_0 : S64x64.Transposes [1, 0] S64x64
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .f32⟩
  | .hbm, ⟨3, _⟩ => ⟨S64x64, .f32⟩
  | .hbm, ⟨4, _⟩ => ⟨S64, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Tile.lean ====
/-
  One row tile through the kernel body.

  The body is handed a tile of 10000 rows of the aggregated features (`x0`, [10000, 64]), the same rows' degrees as a
  column (`x1`, [10000, 1]), the transposed weight (`x2`, [64, 64], entry (k, c) the weight from input feature k to
  output feature c) and the bias as a row (`x3`, [1, 64]). It divides each row by its degree, multiplies the quotient
  matrix by the transposed weight into a zero accumulator, and adds the bias row to every row. On the extended reals the
  change of float format in front of the product is the identity and the product's entry is the plain sum over the 64 input
  features, so entry (p, c) of what the body stores is

      (∑ k, (x0[p, k] / x1[p, 0]) · x2[k, c]) + x3[0, c].
-/
import proofs.«155961_j70583492543063_2_alg».proof.Proof.Gen.KernelIdeal.Skeleton
import proofs.«155961_j70583492543063_2_alg».proof.Proof.LibColumnLayout
import proofs.«155961_j70583492543063_2_alg».proof.Proof.LibPlainProduct
import Idealize.ShloMosaic.Lib.ValueLayout
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- The product's dimension numbers: the quotient matrix's second axis against the transposed weight's first. -/
abbrev tileDot : DotDims S10000x64 S64x64 S10000x64 := dot_S10000x64_S64x64_S10000x64_1_0_0_1_n_n

/-- One axis is contracted, -/
theorem contr_rank : tileDot.contr.rank = 1 := rfl
/-- of the 64 input features. -/
theorem contr_size : tileDot.contr.size ⟨0, by decide⟩ = 64 := rfl

/-- The left operand is read in the output's row, -/
theorem lhs_row (j : S10000x64.Idx) (q : tileDot.contr.Idx) : (tileDot.lhsIdx j q (0 : Fin 2)).val = (j (0 : Fin 2)).val := by
  unfold DotDims.lhsIdx
  rw [dif_neg (show ¬(0 : Fin S10000x64.rank) ∈ tileDot.lhsBatch by decide),
    dif_pos (show (0 : Fin S10000x64.rank) ∈ tileDot.lhsNonContracting by decide)]
  rfl
/-- at the contracted feature; -/
theorem lhs_col (j : S10000x64.Idx) (q : tileDot.contr.Idx) : (tileDot.lhsIdx j q (1 : Fin 2)).val = (q ⟨0, by decide⟩).val :=
  tileDot.lhsIdx_val_of_single rfl j q
/-- the right operand at the contracted feature, -/
theorem rhs_row (j : S10000x64.Idx) (q : tileDot.contr.Idx) : (tileDot.rhsIdx j q (0 : Fin 2)).val = (q ⟨0, by decide⟩).val :=
  tileDot.rhsIdx_val_of_single rfl j q
/-- in the output's column. -/
theorem rhs_col (j : S10000x64.Idx) (q : tileDot.contr.Idx) : (tileDot.rhsIdx j q (1 : Fin 2)).val = (j (1 : Fin 2)).val := by
  unfold DotDims.rhsIdx
  rw [dif_neg (show ¬(1 : Fin S64x64.rank) ∈ tileDot.rhsBatch by decide),
    dif_pos (show (1 : Fin S64x64.rank) ∈ tileDot.rhsNonContracting by decide)]
  rfl

/-- Entry `(p, c)` of what the body stores: row `p` of the tile divided by its degree, against column `c` of the transposed
    weight, plus the bias at `c`. -/
theorem stored_entry (x0 : FVec Ideal S10000x64 .f32) (x1 : FVec Ideal S10000x1 .f32) (x2 : FVec Ideal S64x64 .bf16)
    (x3 : FVec Ideal S1x64 .f32) (p : Fin 10000) (c : Fin 64) :
    k0_pay1 (F := Ideal) x0 x1 x2 x3 (ix2 p c)
      = (∑ k : Fin 64, Ideal.div (x0 (ix2 p k)) (x1 (ix2 p (0 : Fin 1))) * x2 (ix2 k c)) + x3 (ix2 (0 : Fin 1) c) := by
  unfold k0_pay1
  simp only [shapeCast_self]
  refine congrArg₂ (· + ·) ?_ ?_
  · refine (Cert.PlainProduct.matmul_zero_entry tileDot contr_rank contr_size lhs_row lhs_col rhs_row rhs_col _ x2 p c).trans ?_
    refine Finset.sum_congr rfl fun k _ => ?_
    refine congrArg (· * x2 (ix2 k c)) ?_
    show Ideal.div (x0 (ix2 p k)) (broadcastTo S10000x64 x1 broadcasts_S10000x1_S10000x64 (ix2 p k)) = _
    rw [Cert.ColumnLayout.broadcastTo_a1_ab_apply]
  · exact broadcastTo_1b_ab_apply x3 _ p c

end Cert.KernelIdeal.Tile

end
-- ==== Proof.Entry.lean ====
/-
  What the kernel finds in its operands' arrays when it is launched.

  Before the launch the host program has computed four arrays from the arguments:
  * the aggregated features — the rows of the node features gathered at the edges' sources and summed into the edges'
    destinations. The reference computes the same array by the same operations; it is carried here as the reference's own
    term, never opened;
  * the degrees laid out as a column [100000, 1]: entry (r, 0) is the degree of node r;
  * the weight transposed (and changed to a narrower float format, which is the identity on the extended reals): entry
    (k, c) is the weight's entry (c, k);
  * the bias laid out as a row [1, 64]: entry (0, c) is the bias at c.
-/
import proofs.«155961_j70583492543063_2_alg».proof.Proof.Gen.KernelIdeal.Frame
import proofs.«155961_j70583492543063_2_alg».proof.Proof.Gen.ReferenceIdeal.Read
import proofs.«155961_j70583492543063_2_alg».proof.Proof.LibColumnLayout
import Idealize.ShloMosaic.Lib.StableHlo.Run
import Idealize.ShloMosaic.Lib.ValueLayout
import Idealize.ShloMosaic.Lib.ValueIdx

noncomputable section

namespace Cert.KernelIdeal.Entry

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The aggregated features the kernel is launched on are the array the reference divides by the degrees: the same gather
    of the feature rows at the edges' sources, summed into the edges' destinations. -/
theorem aggregated (c : Dev nD) :
    (V m c main_v13 : S100000x64.Idx → EReal)
      = Cert.ReferenceIdeal.Read.val_main_v13 (F := Ideal) (m ((c : Thread nD τ).loc main_arg0)) (m ((c : Thread nD τ).loc main_arg1)) := by
  dsimp only [V, hostOps0]
  after_results <;> rfl

/-- The degrees as a column: entry `(r, u)` is node `r`'s degree. -/
theorem degree_column (c : Dev nD) (r : Fin 100000) (u : Fin 1) :
    (V m c main_v14 : S100000x1.Idx → EReal) (ix2 r u) = (m ((c : Thread nD τ).loc main_arg2) : S100000.Idx → EReal) (ix1 r) := by
  have e : (V m c main_v14 : S100000x1.Idx → EReal)
      = shapeCast S100000x1 (m ((c : Thread nD τ).loc main_arg2) : S100000.Idx → EReal) shapeCasts_S100000_S100000x1 := by
    dsimp only [V, hostOps0]
    after_results <;> rfl
  rw [e]
  exact Cert.ColumnLayout.shapeCast_a_a1_apply _ _ r u

/-- The weight transposed: entry `(k, c)` is the weight's entry `(c, k)`. -/
theorem weight_transposed (c : Dev nD) (k : Fin 64) (j : Fin 64) :
    (V m c main_v16 : S64x64.Idx → EReal) (ix2 k j) = (m ((c : Thread nD τ).loc main_arg3) : S64x64.Idx → EReal) (ix2 j k) := by
  have e : (V m c main_v16 : S64x64.Idx → EReal)
      = truncf (F := Ideal) .bf16 (transpose S64x64 [1, 0] (m ((c : Thread nD τ).loc main_arg3) : S64x64.Idx → EReal) transposes_S64x64_S64x64_1_0) bitsLt_bf16_f32 := by
    dsimp only [V, hostOps0]
    after_results <;> rfl
  rw [e]
  exact transpose_ix2_apply _ _ k j

/-- The bias as a row: entry `(u, j)` is the bias at `j`. -/
theorem bias_row (c : Dev nD) (u : Fin 1) (j : Fin 64) :
    (V m c main_v17 : S1x64.Idx → EReal) (ix2 u j) = (m ((c : Thread nD τ).loc main_arg4) : S64.Idx → EReal) (ix1 j) := by
  have e : (V m c main_v17 : S1x64.Idx → EReal)
      = shapeCast S1x64 (m ((c : Thread nD τ).loc main_arg4) : S64.Idx → EReal) shapeCasts_S64_S1x64 := by
    dsimp only [V, hostOps0]
    after_results <;> rfl
  rw [e]
  exact shapeCast_a_1a_apply _ _ u j

/-! ## The same four facts, the arrays named as the launch names them: by their window -/

/-- Window 0 stages the aggregated features. -/
theorem window0 (c : Dev nD) :
    (V m c (Pipeline.arrRef spec0 0) : S100000x64.Idx → EReal)
      = Cert.ReferenceIdeal.Read.val_main_v13 (F := Ideal) (m ((c : Thread nD τ).loc main_arg0)) (m ((c : Thread nD τ).loc main_arg1)) := by
  show (V m c main_v13 : S100000x64.Idx → EReal) = _
  exact aggregated m c

/-- Window 1 stages the degree column. -/
theorem window1 (c : Dev nD) (r : Fin 100000) (u : Fin 1) :
    (V m c (Pipeline.arrRef spec0 1) : S100000x1.Idx → EReal) (ix2 r u) = (m ((c : Thread nD τ).loc main_arg2) : S100000.Idx → EReal) (ix1 r) := by
  show (V m c main_v14 : S100000x1.Idx → EReal) (ix2 r u) = _
  exact degree_column m c r u

/-- Window 2 stages the transposed weight. -/
theorem window2 (c : Dev nD) (k : Fin 64) (j : Fin 64) :
    (V m c (Pipeline.arrRef spec0 2) : S64x64.Idx → EReal) (ix2 k j) = (m ((c : Thread nD τ).loc main_arg3) : S64x64.Idx → EReal) (ix2 j k) := by
  show (V m c main_v16 : S64x64.Idx → EReal) (ix2 k j) = _
  exact weight_transposed m c k j

/-- Window 3 stages the bias row. -/
theorem window3 (c : Dev nD) (u : Fin 1) (j : Fin 64) :
    (V m c (Pipeline.arrRef spec0 3) : S1x64.Idx → EReal) (ix2 u j) = (m ((c : Thread nD τ).loc main_arg4) : S64.Idx → EReal) (ix1 j) := by
  show (V m c main_v17 : S1x64.Idx → EReal) (ix2 u j) = _
  exact bias_row m c u j

end Cert.KernelIdeal.Entry

end
-- ==== Proof.MeanLinear.lean ====
/-
  Mean aggregation followed by a linear layer, as one function of four arrays.

  Given the aggregated neighbour features `agg` of shape [100000, 64] (row p is the sum of the feature rows of the
  sources of the edges that end at node p), the node degrees `deg` of shape [100000], a weight `W` of shape [64, 64]
  stored [out, in], and a bias `b` of shape [64], the layer's output at node p and output feature c is

      out[p, c] = (∑ k, (agg[p, k] / deg[p]) · W[c, k]) + b[c]

  on the extended reals: the quotient is the extended reals' division, and the sum runs over the 64 input features.
  How `agg` is computed from the node features and the edge list plays no part here: it enters as an array.
-/
import Idealize.ShloMosaic.Lib.ValueIdx
import Idealize.ShloMosaic.PureOps.Ideal

noncomputable section

namespace Cert.MeanLinear

open Idealize.ShloMosaic Idealize.ShloMosaic.ValueIdx

/-- One number per node and feature. -/
abbrev NodesByFeatures : Shape := ⟨2, ![100000, 64]⟩
/-- One number per node. -/
abbrev Nodes : Shape := ⟨1, ![100000]⟩
/-- The weight, stored [out, in]. -/
abbrev OutByIn : Shape := ⟨2, ![64, 64]⟩
/-- One number per output feature. -/
abbrev Features : Shape := ⟨1, ![64]⟩

/-- Node `p`'s mean of its neighbours' features, `agg[p, ·] / deg[p]`, through the linear layer: entry `(p, c)` is
    `(∑ k, (agg[p, k] / deg[p]) · W[c, k]) + b[c]`. -/
def meanLinear (agg : NodesByFeatures.Idx → EReal) (deg : Nodes.Idx → EReal) (W : OutByIn.Idx → EReal)
    (b : Features.Idx → EReal) : NodesByFeatures.Idx → EReal :=
  fun i => (∑ k : Fin 64, Ideal.div (agg (ix2 (n0 := 100000) (n1 := 64) ⟨(i 0).val, (i 0).isLt⟩ k))
      (deg (ix1 (n := 100000) ⟨(i 0).val, (i 0).isLt⟩))
        * W (ix2 (n0 := 64) (n1 := 64) ⟨(i 1).val, (i 1).isLt⟩ k))
    + b (ix1 (n := 64) ⟨(i 1).val, (i 1).isLt⟩)

/-- The same entry with the node and the output feature given as numbers. -/
theorem meanLinear_apply (agg : NodesByFeatures.Idx → EReal) (deg : Nodes.Idx → EReal) (W : OutByIn.Idx → EReal)
    (b : Features.Idx → EReal) (p : Fin 100000) (c : Fin 64) :
    meanLinear agg deg W b (ix2 p c)
      = (∑ k : Fin 64, Ideal.div (agg (ix2 p k)) (deg (ix1 p)) * W (ix2 c k)) + b (ix1 c) := rfl

end Cert.MeanLinear

end
-- ==== Proof.Whole.lean ====
/-
  From row tiles to the whole output.

  The kernel runs at ten grid points. At point t it is handed rows 10000·t … 10000·t + 9999 of the aggregated features
  and of the degree column, the whole transposed weight and the whole bias row, and what it stores is written back as rows
  10000·t … 10000·t + 9999 of the output.

  First for ANY four arrays `A0` [100000, 64], `A1` [100000, 1], `A2` [64, 64], `A3` [1, 64] in the operands' places
  (`tile_rows`): if a function `G` of the output's index satisfies

      G[r, q] = (∑ k, (A0[r, k] / A1[r, 0]) · A2[k, q]) + A3[0, q],

  then what point t writes back is rows 10000·t … of `G` — row p of the tile is row r = 10000·t + p of the arrays, by the
  tile's entry formula and the positions of the blocks. Then for the arrays the kernel is really launched on, with `G` the
  layer's output `meanLinear` (`flushed_eq`). The ten row tiles cover the output (row r lies in tile r / 10000), so after
  the run the output array is `meanLinear` of the aggregated features, the degrees, the weight and the bias.
-/
import proofs.«155961_j70583492543063_2_alg».proof.Proof.Gen.KernelIdeal.Value
import proofs.«155961_j70583492543063_2_alg».proof.Proof.Tile
import proofs.«155961_j70583492543063_2_alg».proof.Proof.Entry
import proofs.«155961_j70583492543063_2_alg».proof.Proof.MeanLinear

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)

theorem origin : (![0, 0] : Fin 2 → Nat) = fun _ => 0 := funext fun a => by fin_cases a <;> rfl

/-- Where each operand's block sits at grid point `t`: the aggregated features, the degree column and the output at row
    block `t`; the transposed weight and the bias row whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- For any arrays in the four operands' places: what the body stores at point `t`, cut to what is written back, is rows
    `10000·t …` of any `G` whose entry `(r, q)` is row `r` of `A0` divided by `A1[r, 0]`, against column `q` of `A2`, plus
    `A3[0, q]`. -/
theorem tile_rows (t : Fin cfg0.N) (A0 : S100000x64.Idx → EReal) (A1 : S100000x1.Idx → EReal) (A2 : S64x64.Idx → EReal)
    (A3 : S1x64.Idx → EReal) (G : S100000x64.Idx → EReal)
    (hG : ∀ (r : Fin 100000) (q : Fin 64), G (ix2 r q)
      = (∑ k : Fin 64, Ideal.div (A0 (ix2 r k)) (A1 (ix2 r (0 : Fin 1))) * A2 (ix2 k q)) + A3 (ix2 (0 : Fin 1) q)) :
    (cfg0.win 4).cut (grid0.coords t) (out0_4 (F := Ideal) (((cfg0.win 0).blk t).view.read (Elt Ideal) A0)
        (((cfg0.win 1).blk t).view.read (Elt Ideal) A1) (((cfg0.win 2).blk t).view.read (Elt Ideal) A2)
        (((cfg0.win 3).blk t).view.read (Elt Ideal) A3))
      = ((cfg0.win 4).blk t).view.read (Elt Ideal) G := by
  unfold out0_4
  rw [View.canon_unit_zero origin]
  simp only [View.ld_unit_zero (S := S10000x64) origin, View.ld_unit_zero (S := S10000x1) origin,
    View.ld_unit_zero (S := S64x64) origin, View.ld_unit_zero (S := S1x64) origin]
  obtain ⟨e00, e01, e10, e11, e20, e21, e30, e31, e40, e41⟩ := block_index t
  have hN : cfg0.N = 10 := N_0
  have ht : t.val < 10 := by have := t.isLt; omega
  funext j
  obtain ⟨p, q, rfl⟩ : ∃ (p : Fin 10000) (q : Fin 64), j = ix2 p q := ⟨j 0, j 1, eq_ix2 j⟩
  -- row p of tile t is row r = 10000·t + p of the arrays
  obtain ⟨r, hr⟩ : ∃ r : Fin 100000, r.val = t.val * 10000 + p.val :=
    ⟨⟨t.val * 10000 + p.val, by have := p.isLt; omega⟩, rfl⟩
  have hout : ((cfg0.win 4).blk t).view.emb (ix2 p q) = ix2 r q := by
    funext a; apply Fin.ext
    match a with
    | ⟨0, _⟩ => show win0_4.index t (0 : Fin 2) * 10000 + 1 * p.val = r.val; omega
    | ⟨1, _⟩ => show win0_4.index t (1 : Fin 2) * 64 + 1 * q.val = q.val; omega
  -- the four blocks read where the arrays hold them
  have h0 : ∀ k : Fin 64, ((cfg0.win 0).blk t).view.read (Elt Ideal) A0 (ix2 p k) = A0 (ix2 r k) := fun k => by
    show A0 (((cfg0.win 0).blk t).view.emb (ix2 p k)) = A0 (ix2 r k)
    refine congrArg A0 ?_
    funext a; apply Fin.ext
    match a with
    | ⟨0, _⟩ => show win0_0.index t (0 : Fin 2) * 10000 + 1 * p.val = r.val; omega
    | ⟨1, _⟩ => show win0_0.index t (1 : Fin 2) * 64 + 1 * k.val = k.val; omega
  have h1 : ((cfg0.win 1).blk t).view.read (Elt Ideal) A1 (ix2 p (0 : Fin 1)) = A1 (ix2 r (0 : Fin 1)) := by
    show A1 (((cfg0.win 1).blk t).view.emb (ix2 p (0 : Fin 1))) = A1 (ix2 r (0 : Fin 1))
    refine congrArg A1 ?_
    funext a; apply Fin.ext
    match a with
    | ⟨0, _⟩ => show win0_1.index t (0 : Fin 2) * 10000 + 1 * p.val = r.val; omega
    | ⟨1, _⟩ => show win0_1.index t (1 : Fin 2) * 1 + 1 * 0 = 0; omega
  have h2 : ∀ k : Fin 64, ((cfg0.win 2).blk t).view.read (Elt Ideal) A2 (ix2 k q) = A2 (ix2 k q) := fun k => by
    show A2 (((cfg0.win 2).blk t).view.emb (ix2 k q)) = A2 (ix2 k q)
    refine congrArg A2 ?_
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have h3 : ((cfg0.win 3).blk t).view.read (Elt Ideal) A3 (ix2 (0 : Fin 1) q) = A3 (ix2 (0 : Fin 1) q) := by
    show A3 (((cfg0.win 3).blk t).view.emb (ix2 (0 : Fin 1) q)) = A3 (ix2 (0 : Fin 1) q)
    refine congrArg A3 ?_
    funext a; apply Fin.ext
    match a with
    | ⟨0, _⟩ => show win0_3.index t (0 : Fin 2) * 1 + 1 * 0 = 0; omega
    | ⟨1, _⟩ => show win0_3.index t (1 : Fin 2) * 64 + 1 * q.val = q.val; omega
  show k0_pay1 (((cfg0.win 0).blk t).view.read (Elt Ideal) A0) (((cfg0.win 1).blk t).view.read (Elt Ideal) A1)
      (((cfg0.win 2).blk t).view.read (Elt Ideal) A2) (((cfg0.win 3).blk t).view.read (Elt Ideal) A3) (ix2 p q)
    = G (((cfg0.win 4).blk t).view.emb (ix2 p q))
  rw [hout, hG r q]
  refine (Tile.stored_entry (((cfg0.win 0).blk t).view.read (Elt Ideal) A0) (((cfg0.win 1).blk t).view.read (Elt Ideal) A1)
    (((cfg0.win 2).blk t).view.read (Elt Ideal) A2) (((cfg0.win 3).blk t).view.read (Elt Ideal) A3) p q).trans ?_
  refine congrArg₂ (· + ·) (Finset.sum_congr rfl fun k _ => ?_) h3
  rw [h0 k, h1, h2 k]

variable (m : (ℓ : Loc nD τ sig) → Buf (Elt Ideal) ℓ) (ρ : Dev nD → PrngReg)

/-- The aggregated features, as a function of the node features and the edge list the program is launched on. -/
abbrev aggregated (c : Dev nD) : S100000x64.Idx → EReal :=
  Cert.ReferenceIdeal.Read.val_main_v13 (F := Ideal) (m ((c : Thread nD τ).loc main_arg0)) (m ((c : Thread nD τ).loc main_arg1))

/-- The layer's output on the arrays the program is launched on. -/
abbrev layer (c : Dev nD) : S100000x64.Idx → EReal :=
  Cert.MeanLinear.meanLinear (aggregated m c)
    (m ((c : Thread nD τ).loc main_arg2)) (m ((c : Thread nD τ).loc main_arg3)) (m ((c : Thread nD τ).loc main_arg4))

/-- The layer's output in terms of what the four operand arrays hold at launch. -/
theorem layer_entry (c : Dev nD) (r : Fin 100000) (q : Fin 64) :
    layer m c (ix2 r q)
      = (∑ k : Fin 64, Ideal.div ((V m c (Pipeline.arrRef spec0 0) : S100000x64.Idx → EReal) (ix2 r k))
            ((V m c (Pipeline.arrRef spec0 1) : S100000x1.Idx → EReal) (ix2 r (0 : Fin 1)))
          * (V m c (Pipeline.arrRef spec0 2) : S64x64.Idx → EReal) (ix2 k q))
        + (V m c (Pipeline.arrRef spec0 3) : S1x64.Idx → EReal) (ix2 (0 : Fin 1) q) := by
  refine (Cert.MeanLinear.meanLinear_apply (aggregated m c) (m ((c : Thread nD τ).loc main_arg2))
    (m ((c : Thread nD τ).loc main_arg3)) (m ((c : Thread nD τ).loc main_arg4)) r q).trans ?_
  refine congrArg₂ (· + ·) (Finset.sum_congr rfl fun k _ => ?_) (Entry.window3 m c 0 q).symm
  rw [Entry.window0 m c, Entry.window1 m c r 0, Entry.window2 m c k q]

/-- What grid point `t` writes back is rows `10000·t …` of the layer's output. -/
theorem flushed_eq (c : Dev nD) (t : Fin cfg0.N) :
    (dats m 0 c).flushed 4 t = ((cfg0.win 4).blk t).view.read (Elt Ideal) (layer m c) := by
  rw [Cert.KernelIdeal.Value.flushed4]
  unfold iblk
  exact tile_rows t (V m c (Pipeline.arrRef spec0 0)) (V m c (Pipeline.arrRef spec0 1)) (V m c (Pipeline.arrRef spec0 2))
    (V m c (Pipeline.arrRef spec0 3)) (layer m c) (layer_entry m c)

/-- An index of the output is in point `t`'s block iff each coordinate is in the block's range on its axis. -/
theorem mem_tile (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v18).slice (win0_4.rect t)).set ↔ _
  rw [View.set_slice_whole, Rect.mem_set_unit]
  exact Iff.rfl

/-- Every entry of the output is written back by some point: row `r` by point `r / 10000`. -/
theorem covered (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, e40, e41⟩ := block_index t
  refine ⟨t, flush0_4 t, ?_⟩
  rw [mem_tile]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 64 ≤ (i 1).val ∧ (i 1).val < win0_4.index t (1 : Fin 2) * 64 + 64
    omega

/-- After the run the output array is the layer's output. -/
theorem final (c : Dev nD) : (dats m 0 c).arrAt 4 cfg0.N = layer m c :=
  (dats m 0 c).arrAt_eq_of_cover 4 (layer m c) (fun t _ => flushed_eq m c t) covered

/-- Every weakly fair execution of the kernel's program terminates with the output at the layer's output and the
    arguments unchanged. -/
theorem run : θ_run defs (onTc (τ := τ) (main (F := Ideal))) ⟨m, fun _ => 0, ρ⟩ fun r => ∀ c : Dev nD,
      r.2.mem ((c : Thread nD τ).loc main_v18) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.ReferenceLayer.lean ====
/-
  The reference computes the layer.

  The reference divides the aggregated features by the degrees (broadcast along the features), multiplies by the
  transposed weight with one contracted axis, and adds the bias (broadcast along the nodes). Read at node p and output
  feature c this is

      (∑ k, (agg[p, k] / deg[p]) · W[c, k]) + b[c],

  the host's product being the plain sum over the contracted feature on the extended reals, the two broadcasts reading
  the degree of the row and the bias of the column, and the transpose swapping the weight's coordinates. The aggregated
  features stay the reference's own term of the node features and the edge list.
-/
import proofs.«155961_j70583492543063_2_alg».proof.Proof.Gen.ReferenceIdeal.Read
import proofs.«155961_j70583492543063_2_alg».proof.Proof.MeanLinear

noncomputable section

namespace Cert.ReferenceIdeal.Layer

open Cert.ReferenceIdeal Cert.ReferenceIdeal.Read Idealize.ShloMosaic Idealize.ShloMosaic.ValueIdx

/-- The reference's result is `meanLinear` of its aggregated features, the degrees, the weight and the bias. -/
theorem result_eq (x0 : (⟨S100000x64, .f32⟩ : BufTy).Contents (Elt Ideal)) (x1 : (⟨S2x1000000, .i32⟩ : BufTy).Contents (Elt Ideal))
    (x2 : (⟨S100000, .f32⟩ : BufTy).Contents (Elt Ideal)) (x3 : (⟨S64x64, .f32⟩ : BufTy).Contents (Elt Ideal))
    (x4 : (⟨S64, .f32⟩ : BufTy).Contents (Elt Ideal)) :
    val_main_v21 (F := Ideal) x0 x1 x2 x3 x4
      = Cert.MeanLinear.meanLinear (val_main_v13 (F := Ideal) x0 x1) x2 x3 x4 := by
  funext i
  obtain ⟨p, c, rfl⟩ : ∃ (p : Fin 100000) (c : Fin 64), i = ix2 p c := ⟨i 0, i 1, eq_ix2 i⟩
  -- the contracted feature k is read at (p, k) on the left and (k, c) on the right
  have hl : ∀ k : Fin 64, lidx_main_v18 (ix2 p c) k = ix2 p k := fun k =>
    funext fun a => Fin.ext (by match a with | ⟨0, _⟩ => rfl | ⟨1, _⟩ => rfl)
  have hr : ∀ k : Fin 64, ridx_main_v18 (ix2 p c) k = ix2 k c := fun k =>
    funext fun a => Fin.ext (by match a with | ⟨0, _⟩ => rfl | ⟨1, _⟩ => rfl)
  -- the degree broadcast along the features is read at the row
  have hd : ∀ k : Fin 64, idx_main_v14 (idx_main_v15 (ix2 p k)) = ix1 p := fun k =>
    funext fun a => Fin.ext (by match a with | ⟨0, _⟩ => rfl)
  -- the transposed weight at (k, c) is the weight at (c, k)
  have hw : ∀ k : Fin 64, idx_main_v17 (ix2 k c) = ix2 c k := fun k =>
    funext fun a => Fin.ext (by match a with | ⟨0, _⟩ => rfl | ⟨1, _⟩ => rfl)
  -- the bias broadcast along the nodes is read at the column
  have hb : idx_main_v19 (idx_main_v20 (ix2 p c)) = ix1 c :=
    funext fun a => Fin.ext (by match a with | ⟨0, _⟩ => rfl)
  rw [Cert.MeanLinear.meanLinear_apply, val_main_v21_apply, val_main_v18_apply, val_main_v20_apply, val_main_v19_apply, hb]
  refine congrArg₂ (· + ·) (Finset.sum_congr rfl fun k _ => ?_) rfl
  rw [hl, hr, val_main_v16_apply, val_main_v15_apply, val_main_v14_apply, val_main_v17_apply, hd, hw]
  rfl

end Cert.ReferenceIdeal.Layer

end
-- ==== Proof.lean ====
/-
  A mean-aggregation graph layer: the tiled kernel against the plain reference, on the extended reals.

  Both programs first compute, on the host and by the same operations, the aggregated features: the rows of the node
  features gathered at the edges' sources and summed into the edges' destinations. From there the reference divides each
  row by its node's degree, multiplies by the transposed weight and adds the bias; the kernel does the same on ten tiles
  of 10000 rows each, dividing inside the tile, multiplying the quotients by the transposed weight into a zero accumulator
  and adding the bias row. On the extended reals a change of float format is the identity and both products are the plain
  sum over the 64 input features, so both programs end with

      out[p, c] = (∑ k, (agg[p, k] / deg[p]) · W[c, k]) + b[c]

  (`Cert.MeanLinear.meanLinear`): the same sum, term by term and in the same order, so no law of arithmetic beyond
  rewriting equals by equals is used, and the finiteness of the inputs is never needed.

  The parts: `Tile` (an entry of what the body stores, from its four blocks), `Entry` (what the four operand arrays hold at
  launch), `Whole` (the ten tiles are the rows of `meanLinear` and cover the output), `ReferenceLayer` (the reference's
  result is `meanLinear`), and here the five claims. The kernel keeps no rewritten operation, so that its idealization
  is sanctioned holds trivially.
-/
import proofs.«155961_j70583492543063_2_alg».proof.Defs
import proofs.«155961_j70583492543063_2_alg».proof.Proof.Gen.Kernel
import proofs.«155961_j70583492543063_2_alg».proof.Proof.Gen.Kernel.Skeleton
import proofs.«155961_j70583492543063_2_alg».proof.Proof.Gen.Kernel.Launch
import proofs.«155961_j70583492543063_2_alg».proof.Proof.Gen.Kernel.Points
import proofs.«155961_j70583492543063_2_alg».proof.Proof.Gen.Kernel.Frame
import proofs.«155961_j70583492543063_2_alg».proof.Proof.Gen.KernelIdeal
import proofs.«155961_j70583492543063_2_alg».proof.Proof.Gen.KernelIdeal.Skeleton
import proofs.«155961_j70583492543063_2_alg».proof.Proof.Gen.KernelIdeal.Launch
import proofs.«155961_j70583492543063_2_alg».proof.Proof.Gen.KernelIdeal.Points
import proofs.«155961_j70583492543063_2_alg».proof.Proof.Gen.KernelIdeal.Frame
import proofs.«155961_j70583492543063_2_alg».proof.Proof.Gen.ReferenceIdeal
import proofs.«155961_j70583492543063_2_alg».proof.Proof.Gen.Pre_finite_inputs
import proofs.«155961_j70583492543063_2_alg».proof.Proof.Gen.KernelIdeal.Value
import proofs.«155961_j70583492543063_2_alg».proof.Proof.Gen.ReferenceIdeal.Run
import proofs.«155961_j70583492543063_2_alg».proof.Proof.Gen.ReferenceIdeal.Read
import proofs.«155961_j70583492543063_2_alg».proof.Proof.Whole
import proofs.«155961_j70583492543063_2_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the five arguments, the kernel's program ends with its output at `meanLinear` of the
    aggregated features, the degrees, the weight and the bias (`Whole.run`), and the reference with its result at the same
    function of its own arguments (`Layer.result_eq`), which are the kernel's. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Layer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
